-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x3 .f32) (main_arg5 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3 .f32 := Host.absf main_arg4
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩
abbrev S100000x3 : Shape := ⟨2, ![100000, 3]⟩
abbrev S5000x3 : Shape := ⟨2, ![5000, 3]⟩
abbrev S3300000x3 : Shape := ⟨2, ![3300000, 3]⟩
abbrev S1x3 : Shape := ⟨2, ![1, 3]⟩

abbrev nBuf : Space → Nat
  | .hbm => 80
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x64, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x64, .f32⟩
  | .hbm, ⟨52, _⟩ => ⟨S3300000x1, .f32⟩
  | .hbm, ⟨53, _⟩ => ⟨S3300000x64, .f32⟩
  | .hbm, ⟨54, _⟩ => ⟨S3300000x64, .f32⟩
  | .hbm, ⟨55, _⟩ => ⟨S_, .f32⟩
  | .hbm, ⟨56, _⟩ => ⟨S100000x64, .f32⟩
  | .hbm, ⟨57, _⟩ => ⟨S3300000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x3, .f32⟩
  | .hbm, ⟨62, _⟩ => ⟨S_, .i32⟩
  | .hbm, ⟨63, _⟩ => ⟨S3300000, .i32⟩
  | .hbm, ⟨64, _⟩ => ⟨S3300000, .i1⟩
  | .hbm, ⟨65, _⟩ => ⟨S_, .i32⟩
  | .hbm, ⟨66, _⟩ => ⟨S3300000, .i32⟩
  | .hbm, ⟨67, _⟩ => ⟨S3300000, .i32⟩
  | .hbm, ⟨68, _⟩ => ⟨S3300000, .i32⟩
  | .hbm, ⟨69, _⟩ => ⟨S3300000x1, .i32⟩
  | .hbm, ⟨70, _⟩ => ⟨S3300000x3, .f32⟩
  | .hbm, ⟨71, _⟩ => ⟨S3300000x1, .f32⟩
  | .hbm, ⟨72, _⟩ => ⟨S3300000x3, .f32⟩
  | .hbm, ⟨73, _⟩ => ⟨S3300000x3, .f32⟩
  | .hbm, ⟨74, _⟩ => ⟨S_, .f32⟩
  | .hbm, ⟨75, _⟩ => ⟨S100000x3, .f32⟩
  | .hbm, ⟨76, _⟩ => ⟨S3300000x1, .i32⟩
  | .hbm, ⟨77, _⟩ => ⟨S100000x3, .f32⟩
  | .hbm, ⟨78, _⟩ => ⟨S1x3, .f32⟩
  | .hbm, ⟨79, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x3, .f32⟩
  | .local _ .vmem, ⟨13, _⟩ => ⟨S5000x3, .f32⟩
  | .local _ .vmem, ⟨14, _⟩ => ⟨S5000x3, .f32⟩
  | .local _ .vmem, ⟨15, _⟩ => ⟨S5000x3, .f32⟩
  | .local _ .vmem, ⟨16, _⟩ => ⟨S5000x3, .f32⟩
  | .local _ .vmem, ⟨17, _⟩ => ⟨S1x3, .f32⟩
  | .local _ .vmem, ⟨18, _⟩ => ⟨S5000x3, .f32⟩
  | .local _ .vmem, ⟨19, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x3_S64x3_0_0 : ∀ a, (![0, 0] : Fin 2 → Nat) a + S64x3.size a ≤ S64x3.size a
  h_S64x3 : 0 < S64x3.numel
  inb_S5000x3_S5000x3_0_0 : ∀ a, (![0, 0] : Fin 2 → Nat) a + S5000x3.size a ≤ S5000x3.size a
  h_S5000x3 : 0 < S5000x3.numel
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  shapeCasts_S3_S1x3 : S3.ShapeCasts S1x3
  shapeCasts_S5000x3_S5000x3 : S5000x3.ShapeCasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x3_S5000x3_1_0_0_1_n_n_wf : DotDims.WF S5000x64 S64x3 S5000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x3.size a ≤ S64x3.size a
  hwx2_1 : ∀ i : grid2.Coords, EltTy.bits .f32 = 32 ∨ (Rect.block (s := S64x3) S64x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x3.size a ≤ S100000x3.size a
  hwx2_2 : ∀ i : grid2.Coords, EltTy.bits .f32 = 32 ∨ (Rect.block (s := S100000x3) S5000x3.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x3.size a ≤ S100000x3.size a
  hwx3_0 : ∀ i : grid3.Coords, EltTy.bits .f32 = 32 ∨ (Rect.block (s := S100000x3) S5000x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3.size a ≤ S1x3.size a
  hwx3_1 : ∀ i : grid3.Coords, EltTy.bits .f32 = 32 ∨ (Rect.block (s := S1x3) S1x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x3.size a ≤ S100000x3.size a
  hwx3_2 : ∀ i : grid3.Coords, EltTy.bits .f32 = 32 ∨ (Rect.block (s := S100000x3) S5000x3.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x3.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x3 : Shape := ⟨2, ![100000, 3]⟩
abbrev S3300000x3 : Shape := ⟨2, ![3300000, 3]⟩
abbrev S1x3 : Shape := ⟨2, ![1, 3]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x64, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x64, .f32⟩
  | .hbm, ⟨52, _⟩ => ⟨S3300000x1, .f32⟩
  | .hbm, ⟨53, _⟩ => ⟨S3300000x64, .f32⟩
  | .hbm, ⟨54, _⟩ => ⟨S3300000x64, .f32⟩
  | .hbm, ⟨55, _⟩ => ⟨S_, .f32⟩
  | .hbm, ⟨56, _⟩ => ⟨S100000x64, .f32⟩
  | .hbm, ⟨57, _⟩ => ⟨S3300000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000, .i32⟩
  | .hbm, ⟨66, _⟩ => ⟨S1x3200000, .i32⟩
  | .hbm, ⟨67, _⟩ => ⟨S3200000, .i32⟩
  | .hbm, ⟨68, _⟩ => ⟨S3300000, .i32⟩
  | .hbm, ⟨69, _⟩ => ⟨S1x3200000, .i32⟩
  | .hbm, ⟨70, _⟩ => ⟨S3200000, .i32⟩
  | .hbm, ⟨71, _⟩ => ⟨S3300000, .i32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S3300000, .i32⟩
  | .hbm, ⟨84, _⟩ => ⟨S3300000, .i1⟩
  | .hbm, ⟨85, _⟩ => ⟨S_, .i32⟩
  | .hbm, ⟨86, _⟩ => ⟨S3300000, .i32⟩
  | .hbm, ⟨87, _⟩ => ⟨S3300000, .i32⟩
  | .hbm, ⟨88, _⟩ => ⟨S3300000, .i32⟩
  | .hbm, ⟨89, _⟩ => ⟨S3300000x1, .i32⟩
  | .hbm, ⟨90, _⟩ => ⟨S3300000, .f32⟩
  | .hbm, ⟨91, _⟩ => ⟨S_, .i32⟩
  | .hbm, ⟨92, _⟩ => ⟨S3300000, .i32⟩
  | .hbm, ⟨93, _⟩ => ⟨S3300000, .i1⟩
  | .hbm, ⟨94, _⟩ => ⟨S_, .i32⟩
  | .hbm, ⟨95, _⟩ => ⟨S3300000, .i32⟩
  | .hbm, ⟨96, _⟩ => ⟨S3300000, .i32⟩
  | .hbm, ⟨97, _⟩ => ⟨S3300000, .i32⟩
  | .hbm, ⟨98, _⟩ => ⟨S3300000x1, .i32⟩
  | .hbm, ⟨99, _⟩ => ⟨S3300000, .f32⟩
  | .hbm, ⟨100, _⟩ => ⟨S3300000, .f32⟩
  | .hbm, ⟨101, _⟩ => ⟨S100000x3, .f32⟩
  | .hbm, ⟨102, _⟩ => ⟨S_, .i32⟩
  | .hbm, ⟨103, _⟩ => ⟨S3300000, .i32⟩
  | .hbm, ⟨104, _⟩ => ⟨S3300000, .i1⟩
  | .hbm, ⟨105, _⟩ => ⟨S_, .i32⟩
  | .hbm, ⟨106, _⟩ => ⟨S3300000, .i32⟩
  | .hbm, ⟨107, _⟩ => ⟨S3300000, .i32⟩
  | .hbm, ⟨108, _⟩ => ⟨S3300000, .i32⟩
  | .hbm, ⟨109, _⟩ => ⟨S3300000x1, .i32⟩
  | .hbm, ⟨110, _⟩ => ⟨S3300000x3, .f32⟩
  | .hbm, ⟨111, _⟩ => ⟨S3300000x1, .f32⟩
  | .hbm, ⟨112, _⟩ => ⟨S3300000x3, .f32⟩
  | .hbm, ⟨113, _⟩ => ⟨S3300000x3, .f32⟩
  | .hbm, ⟨114, _⟩ => ⟨S_, .f32⟩
  | .hbm, ⟨115, _⟩ => ⟨S100000x3, .f32⟩
  | .hbm, ⟨116, _⟩ => ⟨S3300000x1, .i32⟩
  | .hbm, ⟨117, _⟩ => ⟨S100000x3, .f32⟩
  | .hbm, ⟨118, _⟩ => ⟨S1x3, .f32⟩
  | .hbm, ⟨119, _⟩ => ⟨S100000x3, .f32⟩
  | .hbm, ⟨120, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_c_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x3_S100000x3_1_0_0_1_n_n_wf : DotDims.WF S100000x64 S64x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

class Facts : Prop extends Facts₀ where

variable [Facts]
-- ==== Proof.GcnModel.lean ====
/-
  The two-layer graph convolution as one function of its six arguments, layer by layer, in the reference's own
  operations. A layer multiplies the node features by its weights (dense), then for every edge (s, d) of the edge
  list extended by one self-loop per node takes row s of the product scaled by the edge's weight
  rsqrt(max(deg s, 1)) * rsqrt(max(deg d, 1)) and adds it into row d (aggregate), then adds the bias. Between
  the layers the features are clipped below at zero.
-/
import proofs.«162686_j6459630813849_1_alg».proof.Proof.Gen.ReferenceIdeal.Read

noncomputable section

open Idealize.ShloMosaic Idealize.ShloMosaic.TcCoe Idealize.SL.Sem

namespace Cert.Gcn

open Cert.ReferenceIdeal Cert.ReferenceIdeal.Read

/-- The first layer's linear map: features times weights. -/
def dense1 (X : FVec Ideal S100000x128 .f32) (W : FVec Ideal S128x64 .f32) : FVec Ideal S100000x64 .f32 :=
  Host.dotGeneral dot_S100000x128_S128x64_S100000x64_1_0_0_1_n_n none X W

/-- Aggregation of 64-wide rows along the edges: gather the source rows, scale by the edge weights, add into the
    destination rows, from zero. -/
def aggregate64 (e : IVec S2x3200000 32) (H : FVec Ideal S100000x64 .f32) : FVec Ideal S100000x64 .f32 :=
  Host.scatterAdd scatter_S100000x64_S3300000x1_S3300000x64_1_0_0_1 (val_main_v40 (F := Ideal)) (val_main_v41 (F := Ideal) e)
    (mulf (Host.gather gather_S100000x64_S3300000x1_S3300000x64_1_0_n_n_0_1_164 H (val_main_v35 (F := Ideal) e)) (val_main_v38 (F := Ideal) e))

/-- The first layer's bias and clipping at zero. -/
def biasRelu (A : FVec Ideal S100000x64 .f32) (b : FVec Ideal S64 .f32) : FVec Ideal S100000x64 .f32 :=
  maximumf (addf A (val_main_v44 (F := Ideal) b)) (val_main_call0_v0 (F := Ideal))

/-- The second layer's linear map. -/
def dense2 (H : FVec Ideal S100000x64 .f32) (W : FVec Ideal S64x3 .f32) : FVec Ideal S100000x3 .f32 :=
  Host.dotGeneral dot_S100000x64_S64x3_S100000x3_1_0_0_1_n_n none H W

/-- Aggregation of 3-wide rows along the same edges with the same weights. -/
def aggregate3 (e : IVec S2x3200000 32) (H : FVec Ideal S100000x3 .f32) : FVec Ideal S100000x3 .f32 :=
  Host.scatterAdd scatter_S100000x3_S3300000x1_S3300000x3_1_0_0_1 (val_main_v87 (F := Ideal)) (val_main_v88 (F := Ideal) e)
    (mulf (Host.gather gather_S100000x3_S3300000x1_S3300000x3_1_0_n_n_0_1_13 H (val_main_v82 (F := Ideal) e)) (val_main_v85 (F := Ideal) e))

/-- The second layer's bias. -/
def bias3 (A : FVec Ideal S100000x3 .f32) (b : FVec Ideal S3 .f32) : FVec Ideal S100000x3 .f32 :=
  addf A (val_main_v91 (F := Ideal) b)

/-- The network. -/
def gcn (x : FVec Ideal S100000x128 .f32) (e : IVec S2x3200000 32) (W1 : FVec Ideal S128x64 .f32) (b1 : FVec Ideal S64 .f32)
    (W2 : FVec Ideal S64x3 .f32) (b2 : FVec Ideal S3 .f32) : FVec Ideal S100000x3 .f32 :=
  bias3 (aggregate3 e (dense2 (biasRelu (aggregate64 e (dense1 x W1)) b1) W2)) b2

/-- The reference computes the network: its last stage, unfolded layer by layer, is `gcn` of the arguments. -/
theorem reference_eq (x : FVec Ideal S100000x128 .f32) (e : IVec S2x3200000 32) (W1 : FVec Ideal S128x64 .f32) (b1 : FVec Ideal S64 .f32)
    (W2 : FVec Ideal S64x3 .f32) (b2 : FVec Ideal S3 .f32) :
    val_main_v92 (F := Ideal) x e W1 b1 W2 b2 = gcn x e W1 b1 W2 b2 := by
  unfold val_main_v92 val_main_v89 val_main_v86 val_main_v83 val_main_v76 val_main_v46 val_main_v45 val_main_v42 val_main_v39 val_main_v36 val_main_v29
  rfl

end Cert.Gcn

end
-- ==== Proof.KernelRun.lean ====
/-
  The kernel's run, read at every buffer. The program is seven segments: host operations, the first dense layer,
  host operations (gather, scale, add along the edges), the bias-and-clip layer, the second dense layer, host
  operations again, the last bias layer. The run below ends with every buffer of the device at the contents the
  seven segments leave in turn; the theorems after it read the result buffer and the arguments out of that.
-/
import proofs.«162686_j6459630813849_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and at the end every unscoped buffer of every core holds
    what the last segment leaves. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run read at the result buffer and the six arguments. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_buffers m ρ)

end Cert.KernelIdeal.Whole

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.DenseLayer1.lean ====
/-
  The first dense layer. Each grid point multiplies a block of 5000 rows of the features by the whole 128 x 64
  weight matrix; the twenty row blocks tile the 100000 rows, so after the last point the result array is the
  product of the whole feature array with the weights: entry (r, q) is the sum over k of X (r, k) * W (k, q).
  The rounding of the operands to bf16 is the identity on the extended reals.
-/
import proofs.«162686_j6459630813849_1_alg».proof.Proof.Gen.KernelIdeal.Frame
import proofs.«162686_j6459630813849_1_alg».proof.Proof.LibDenseLayers
import proofs.«162686_j6459630813849_1_alg».proof.Proof.LibHostMatmul
import proofs.«162686_j6459630813849_1_alg».proof.Proof.GcnModel
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen Idealize.ShloMosaic.DenseLayers

variable (V : (c : Dev nD) → (b : Ref sig .tc) → Buf (Elt Ideal) ((c : Thread nD τ).loc b))

theorem zero_offsets : (![0, 0] : Fin 2 → Nat) = fun _ => 0 := funext fun a => by fin_cases a <;> rfl

/-- The whole product read at an entry. -/
theorem dense1_apply (X : FVec Ideal Cert.ReferenceIdeal.S100000x128 .f32) (W : FVec Ideal Cert.ReferenceIdeal.S128x64 .f32)
    (r : Fin 100000) (q : Fin 64) :
    Cert.Gcn.dense1 X W (ix2 r q) = ∑ k : Fin 128, X (ix2 r k) * W (ix2 k q) := by
  unfold Cert.Gcn.dense1
  exact dotGeneral_rowcol_apply Cert.ReferenceIdeal.Facts₀.dot_S100000x128_S128x64_S100000x64_1_0_0_1_n_n_wf none X W r q

/-- One point's product: entry (p, q) of the block is the sum over k of the row block's (p, k) times W (k, q). -/
theorem blockProduct1 (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact matmul_rowcol_zero_apply Facts₀.dot_S5000x128_S128x64_S5000x64_1_0_0_1_n_n_wf none _ _ p q

/-- The block indices of the three windows at a point: the row blocks move with the point, the weights stay. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 5000 t ... 5000 t + 4999 of the whole product. -/
theorem flushed0 (c : Dev nD) (t : Fin cfg0.N) :
    (dat0 V c).flushed 2 t = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := blockIndex0 t
  have ht : t.val < 20 := lt_of_lt_of_eq t.isLt N_0
  funext j
  obtain ⟨p, q, rfl⟩ : ∃ (p : Fin 5000) (q : Fin 64), j = ix2 p q := ⟨j 0, j 1, eq_ix2 j⟩
  have hrow : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 64 + 1 * q.val = q.val; rw [e5]; omega
  show k0_pay1 (iblk0 V c 0 t) (iblk0 V c 1 t) (ix2 p q)
    = Cert.Gcn.dense1 (V c main_arg0) (V c main_arg2) (((cfg0.win 2).blk t).view.emb (ix2 p q))
  rw [hrow, blockProduct1, dense1_apply]
  refine Finset.sum_congr rfl fun k _ => ?_
  congr 1
  · show V c main_arg0 (((cfg0.win 0).blk t).view.emb (ix2 p k)) = V c main_arg0 _
    congr 1
    funext a; apply Fin.ext
    match a with
    | ⟨0, _⟩ => show win0_0.index t (0 : Fin 2) * 5000 + 1 * p.val = t.val * 5000 + p.val; rw [e0]; omega
    | ⟨1, _⟩ => show win0_0.index t (1 : Fin 2) * 128 + 1 * k.val = k.val; rw [e1]; omega
  · show V c main_arg2 (((cfg0.win 1).blk t).view.emb (ix2 k q)) = V c main_arg2 _
    congr 1
    funext a; apply Fin.ext
    match a with
    | ⟨0, _⟩ => show win0_1.index t (0 : Fin 2) * 128 + 1 * k.val = k.val; rw [e2]; omega
    | ⟨1, _⟩ => show win0_1.index t (1 : Fin 2) * 64 + 1 * q.val = q.val; rw [e3]; omega

/-- A row is in point t's block exactly when it lies among the block's 5000 rows. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- After the last point the result array is the whole product: row r lies in the block of point r / 5000. -/
theorem final0 (c : Dev nD) :
    (dat0 V c).arrAt 2 cfg0.N = Cert.Gcn.dense1 (V c main_arg0) (V c main_arg2) :=
  (dat0 V c).arrAt_eq_of_cover 2 _ (fun t _ => flushed0 V c t) fun i => by
    have hi0 : (i 0).val < 100000 := (i 0).isLt
    have hi1 : (i 1).val < 64 := (i 1).isLt
    have hN : cfg0.N = 20 := N_0
    refine ⟨⟨(i 0).val / 5000, by rw [hN]; omega⟩, flush0_2 _, ?_⟩
    rw [mem_block0]
    obtain ⟨e0, e1, e2, e3, e4, e5⟩ := blockIndex0 ⟨(i 0).val / 5000, by rw [hN]; omega⟩
    intro a
    match a with
    | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
    | ⟨1, _⟩ => show win0_2.index _ (1 : Fin 2) * 64 ≤ (i 1).val ∧ (i 1).val < win0_2.index _ (1 : Fin 2) * 64 + 64; rw [e5]; omega

end Cert.KernelIdeal.Dense1

end
-- ==== Proof.BiasClipLayer.lean ====
/-
  The first layer's bias and clipping. Each grid point adds the bias row to every one of a block of 5000 rows of the
  aggregated features and clips below at zero; the twenty row blocks tile the 100000 rows, so after the last point
  entry (r, q) of the result array is max (A (r, q) + b q, 0). The kernel is handed the bias as a 1 x 64 array (the
  64 entries re-laid as one row) and lays that row along the rows of its block; the reference lays the 64 entries
  along the rows of the whole array.
-/
import proofs.«162686_j6459630813849_1_alg».proof.Proof.Gen.KernelIdeal.Frame
import proofs.«162686_j6459630813849_1_alg».proof.Proof.GcnModel
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasClip

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The whole layer read at an entry. -/
theorem biasRelu_apply (A : FVec Ideal Cert.ReferenceIdeal.S100000x64 .f32) (b : FVec Ideal Cert.ReferenceIdeal.S64 .f32)
    (r : Fin 100000) (q : Fin 64) :
    Cert.Gcn.biasRelu A b (ix2 r q) = max (A (ix2 r q) + b (ix1 q)) (Ideal.ofBits .f32 0x00000000#32) := by
  unfold Cert.Gcn.biasRelu
  rw [maximumf_apply, addf_apply, Cert.ReferenceIdeal.Read.val_main_v44_apply, Cert.ReferenceIdeal.Read.val_main_v43_apply,
    Cert.ReferenceIdeal.Read.val_main_call0_v0_apply]
  have e : Cert.ReferenceIdeal.Read.idx_main_v43 (Cert.ReferenceIdeal.Read.idx_main_v44 (ix2 r q)) = ix1 q :=
    funext fun a => Fin.ext (by match a with | ⟨0, _⟩ => rfl)
  rw [e]
  rfl

/-- One point's block: entry (p, q) is the block's entry plus the bias row's entry q, clipped at zero. -/
theorem blockBiasClip (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  simp only [shapeCast_self]
  rw [maximumf_apply, addf_apply,
    broadcastTo_apply x1 Facts₀.broadcasts_S1x64_S5000x64 (ix2 p q) (ix2 (0 : Fin 1) q) (fun a => by
      match a with
      | ⟨0, _⟩ => rfl
      | ⟨1, _⟩ => rfl)]
  rfl

/-- The block indices of the three windows at a point: the row blocks move with the point, the bias row stays. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 5000 t ... 5000 t + 4999 of the whole layer, when the 1 x 64 array the kernel
    is handed is the bias's 64 entries as one row. -/
theorem flushed1 (c : Dev nD) (b : FVec Ideal S64 .f32)
    (hb : (V c main_v43 : S1x64.Idx → EReal) = shapeCast S1x64 b Facts₀.shapeCasts_S64_S1x64) (t : Fin cfg1.N) :
    (dat1 V c).flushed 2 t = ((cfg1.win 2).blk t).view.read (Elt Ideal) (Cert.Gcn.biasRelu (V c main_v42) b) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0, e1, e2, e3, e4, e5⟩ := blockIndex1 t
  have ht : t.val < 20 := lt_of_lt_of_eq t.isLt N_1
  funext j
  obtain ⟨p, q, rfl⟩ : ∃ (p : Fin 5000) (q : Fin 64), j = ix2 p q := ⟨j 0, j 1, eq_ix2 j⟩
  have hrow : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; rw [e4]; omega
    | ⟨1, _⟩ => show win1_2.index t (1 : Fin 2) * 64 + 1 * q.val = q.val; rw [e5]; omega
  show k1_pay1 (iblk1 V c 0 t) (iblk1 V c 1 t) (ix2 p q)
    = Cert.Gcn.biasRelu (V c main_v42) b (((cfg1.win 2).blk t).view.emb (ix2 p q))
  have h0 : iblk1 V c 0 t (ix2 p q) = V c main_v42 (ix2 (⟨t.val * 5000 + p.val, by omega⟩ : Fin 100000) q) := by
    show V c main_v42 (((cfg1.win 0).blk t).view.emb (ix2 p q)) = V c main_v42 _
    refine congrArg (V c main_v42) (funext fun a => Fin.ext ?_)
    match a with
    | ⟨0, _⟩ => show win1_0.index t (0 : Fin 2) * 5000 + 1 * p.val = t.val * 5000 + p.val; rw [e0]; omega
    | ⟨1, _⟩ => show win1_0.index t (1 : Fin 2) * 64 + 1 * q.val = q.val; rw [e1]; omega
  have h1 : iblk1 V c 1 t (ix2 (0 : Fin 1) q) = b (ix1 q) := by
    show (V c main_v43 : S1x64.Idx → EReal) (((cfg1.win 1).blk t).view.emb (ix2 (0 : Fin 1) q)) = b (ix1 q)
    rw [hb]
    refine shapeCast_apply b Facts₀.shapeCasts_S64_S1x64 _ (ix1 q) ?_
    rw [Shape.rowMajor_val_two, Shape.rowMajor_val_one]
    show q.val = (win1_1.index t (0 : Fin 2) * 1 + 1 * 0) * 64 + (win1_1.index t (1 : Fin 2) * 64 + 1 * q.val)
    rw [e2, e3]; omega
  rw [hrow, blockBiasClip, biasRelu_apply, h0, h1]

/-- A row is in point t's block exactly when it lies among the block's 5000 rows. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v44).slice (win1_2.rect t)).set ↔ _
  rw [View.set_slice_whole, Rect.mem_set_unit]
  exact Iff.rfl

/-- After the last point the result array is the whole layer: row r lies in the block of point r / 5000. -/
theorem final1 (c : Dev nD) (b : FVec Ideal S64 .f32)
    (hb : (V c main_v43 : S1x64.Idx → EReal) = shapeCast S1x64 b Facts₀.shapeCasts_S64_S1x64) :
    (dat1 V c).arrAt 2 cfg1.N = Cert.Gcn.biasRelu (V c main_v42) b :=
  (dat1 V c).arrAt_eq_of_cover 2 _ (fun t _ => flushed1 V c b hb t) fun i => by
    have hi0 : (i 0).val < 100000 := (i 0).isLt
    have hi1 : (i 1).val < 64 := (i 1).isLt
    have hN : cfg1.N = 20 := N_1
    refine ⟨⟨(i 0).val / 5000, by rw [hN]; omega⟩, flush1_2 _, ?_⟩
    rw [mem_block1]
    obtain ⟨e0, e1, e2, e3, e4, e5⟩ := blockIndex1 ⟨(i 0).val / 5000, by rw [hN]; omega⟩
    intro a
    match a with
    | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
    | ⟨1, _⟩ => show win1_2.index _ (1 : Fin 2) * 64 ≤ (i 1).val ∧ (i 1).val < win1_2.index _ (1 : Fin 2) * 64 + 64; rw [e5]; omega

end Cert.KernelIdeal.BiasClip

end
-- ==== Proof.DenseLayer2.lean ====
/-
  The second dense layer. Each grid point multiplies a block of 5000 rows of the hidden features by the whole 64 x 3
  weight matrix; the twenty row blocks tile the 100000 rows, so after the last point the result array is the
  product of the whole feature array with the weights: entry (r, q) is the sum over k of X (r, k) * W (k, q).
  The rounding of the operands to bf16 is the identity on the extended reals.
-/
import proofs.«162686_j6459630813849_1_alg».proof.Proof.Gen.KernelIdeal.Frame
import proofs.«162686_j6459630813849_1_alg».proof.Proof.LibDenseLayers
import proofs.«162686_j6459630813849_1_alg».proof.Proof.LibHostMatmul
import proofs.«162686_j6459630813849_1_alg».proof.Proof.GcnModel
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Idealize.ShloMosaic.DenseLayers

variable (V : (c : Dev nD) → (b : Ref sig .tc) → Buf (Elt Ideal) ((c : Thread nD τ).loc b))

theorem zero_offsets : (![0, 0] : Fin 2 → Nat) = fun _ => 0 := funext fun a => by fin_cases a <;> rfl

/-- The whole product read at an entry. -/
theorem dense2_apply (X : FVec Ideal Cert.ReferenceIdeal.S100000x64 .f32) (W : FVec Ideal Cert.ReferenceIdeal.S64x3 .f32)
    (r : Fin 100000) (q : Fin 3) :
    Cert.Gcn.dense2 X W (ix2 r q) = ∑ k : Fin 64, X (ix2 r k) * W (ix2 k q) := by
  unfold Cert.Gcn.dense2
  exact dotGeneral_rowcol_apply Cert.ReferenceIdeal.Facts₀.dot_S100000x64_S64x3_S100000x3_1_0_0_1_n_n_wf none X W r q

/-- One point's product: entry (p, q) of the block is the sum over k of the row block's (p, k) times W (k, q). -/
theorem blockProduct2 (x0 : Vec Ideal S5000x64 .f32) (x1 : Vec Ideal S64x3 .f32) (p : Fin 5000) (q : Fin 3) :
    k2_pay1 x0 x1 (ix2 p q) = ∑ k : Fin 64, x0 (ix2 p k) * x1 (ix2 k q) := by
  unfold k2_pay1
  simp only [shapeCast_self]
  exact matmul_rowcol_zero_apply Facts₀.dot_S5000x64_S64x3_S5000x3_1_0_0_1_n_n_wf none _ _ p q

/-- The block indices of the three windows at a point: the row blocks move with the point, the weights stay. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is rows 5000 t ... 5000 t + 4999 of the whole product. -/
theorem flushed2 (c : Dev nD) (t : Fin cfg2.N) :
    (dat2 V c).flushed 2 t = ((cfg2.win 2).blk t).view.read (Elt Ideal) (Cert.Gcn.dense2 (V c main_v44) (V c main_arg4)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x3) zero_offsets]
  obtain ⟨e0, e1, e2, e3, e4, e5⟩ := blockIndex2 t
  have ht : t.val < 20 := lt_of_lt_of_eq t.isLt N_2
  funext j
  obtain ⟨p, q, rfl⟩ : ∃ (p : Fin 5000) (q : Fin 3), j = ix2 p q := ⟨j 0, j 1, eq_ix2 j⟩
  have hrow : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 3 + 1 * q.val = q.val; rw [e5]; omega
  show k2_pay1 (iblk2 V c 0 t) (iblk2 V c 1 t) (ix2 p q)
    = Cert.Gcn.dense2 (V c main_v44) (V c main_arg4) (((cfg2.win 2).blk t).view.emb (ix2 p q))
  rw [hrow, blockProduct2, dense2_apply]
  refine Finset.sum_congr rfl fun k _ => ?_
  congr 1
  · show V c main_v44 (((cfg2.win 0).blk t).view.emb (ix2 p k)) = V c main_v44 _
    congr 1
    funext a; apply Fin.ext
    match a with
    | ⟨0, _⟩ => show win2_0.index t (0 : Fin 2) * 5000 + 1 * p.val = t.val * 5000 + p.val; rw [e0]; omega
    | ⟨1, _⟩ => show win2_0.index t (1 : Fin 2) * 64 + 1 * k.val = k.val; rw [e1]; omega
  · show V c main_arg4 (((cfg2.win 1).blk t).view.emb (ix2 k q)) = V c main_arg4 _
    congr 1
    funext a; apply Fin.ext
    match a with
    | ⟨0, _⟩ => show win2_1.index t (0 : Fin 2) * 64 + 1 * k.val = k.val; rw [e2]; omega
    | ⟨1, _⟩ => show win2_1.index t (1 : Fin 2) * 3 + 1 * q.val = q.val; rw [e3]; omega

/-- A row is in point t's block exactly when it lies among the block's 5000 rows. -/
theorem mem_block2 (t : Fin cfg2.N) (i : S100000x3.Idx) :
    i ∈ ((cfg2.win 2).blk t).view.set ↔ ∀ a : Fin 2, win2_2.index t a * S5000x3.size a ≤ (i a).val ∧ (i a).val < win2_2.index t a * S5000x3.size a + S5000x3.size a := by
  show i ∈ ((View.whole main_v45).slice (win2_2.rect t)).set ↔ _
  rw [View.set_slice_whole, Rect.mem_set_unit]
  exact Iff.rfl

/-- After the last point the result array is the whole product: row r lies in the block of point r / 5000. -/
theorem final2 (c : Dev nD) :
    (dat2 V c).arrAt 2 cfg2.N = Cert.Gcn.dense2 (V c main_v44) (V c main_arg4) :=
  (dat2 V c).arrAt_eq_of_cover 2 _ (fun t _ => flushed2 V c t) fun i => by
    have hi0 : (i 0).val < 100000 := (i 0).isLt
    have hi1 : (i 1).val < 3 := (i 1).isLt
    have hN : cfg2.N = 20 := N_2
    refine ⟨⟨(i 0).val / 5000, by rw [hN]; omega⟩, flush2_2 _, ?_⟩
    rw [mem_block2]
    obtain ⟨e0, e1, e2, e3, e4, e5⟩ := blockIndex2 ⟨(i 0).val / 5000, by rw [hN]; omega⟩
    intro a
    match a with
    | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
    | ⟨1, _⟩ => show win2_2.index _ (1 : Fin 2) * 3 ≤ (i 1).val ∧ (i 1).val < win2_2.index _ (1 : Fin 2) * 3 + 3; rw [e5]; omega

end Cert.KernelIdeal.Dense2

end
-- ==== Proof.BiasLayer2.lean ====
/-
  The second layer's bias. Each grid point adds the bias row to every one of a block of 5000 rows of the
  aggregated 3-wide features; the twenty row blocks tile the 100000 rows, so after the last point
  entry (r, q) of the result array is A (r, q) + b q. The kernel is handed the bias as a 1 x 3 array (the
  3 entries re-laid as one row) and lays that row along the rows of its block; the reference lays the 3 entries
  along the rows of the whole array.
-/
import proofs.«162686_j6459630813849_1_alg».proof.Proof.Gen.KernelIdeal.Frame
import proofs.«162686_j6459630813849_1_alg».proof.Proof.GcnModel
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bias2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The whole layer read at an entry. -/
theorem bias3_apply (A : FVec Ideal Cert.ReferenceIdeal.S100000x3 .f32) (b : FVec Ideal Cert.ReferenceIdeal.S3 .f32)
    (r : Fin 100000) (q : Fin 3) :
    Cert.Gcn.bias3 A b (ix2 r q) = A (ix2 r q) + b (ix1 q) := by
  unfold Cert.Gcn.bias3
  rw [addf_apply, Cert.ReferenceIdeal.Read.val_main_v91_apply, Cert.ReferenceIdeal.Read.val_main_v90_apply]
  have e : Cert.ReferenceIdeal.Read.idx_main_v90 (Cert.ReferenceIdeal.Read.idx_main_v91 (ix2 r q)) = ix1 q :=
    funext fun a => Fin.ext (by match a with | ⟨0, _⟩ => rfl)
  rw [e]

/-- One point's block: entry (p, q) is the block's entry plus the bias row's entry q. -/
theorem blockBias (x0 : Vec Ideal S5000x3 .f32) (x1 : Vec Ideal S1x3 .f32) (p : Fin 5000) (q : Fin 3) :
    k3_pay1 x0 x1 (ix2 p q) = x0 (ix2 p q) + x1 (ix2 (0 : Fin 1) q) := by
  unfold k3_pay1
  simp only [shapeCast_self]
  rw [addf_apply,
    broadcastTo_apply x1 Facts₀.broadcasts_S1x3_S5000x3 (ix2 p q) (ix2 (0 : Fin 1) q) (fun a => by
      match a with
      | ⟨0, _⟩ => rfl
      | ⟨1, _⟩ => rfl)]

/-- The block indices of the three windows at a point: the row blocks move with the point, the bias row stays. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is rows 5000 t ... 5000 t + 4999 of the whole layer, when the 1 x 3 array the kernel
    is handed is the bias's 3 entries as one row. -/
theorem flushed3 (c : Dev nD) (b : FVec Ideal S3 .f32)
    (hb : (V c main_v59 : S1x3.Idx → EReal) = shapeCast S1x3 b Facts₀.shapeCasts_S3_S1x3) (t : Fin cfg3.N) :
    (dat3 V c).flushed 2 t = ((cfg3.win 2).blk t).view.read (Elt Ideal) (Cert.Gcn.bias3 (V c main_v58) b) := by
  show (cfg3.win 2).cut (grid3.coords t) ((dat3 V c).after 2 t) = _
  rw [after3_2]
  unfold out3_2
  rw [View.canon_unit_zero zero_offsets]
  simp only [View.ld_unit_zero (S := S5000x3) zero_offsets, View.ld_unit_zero (S := S1x3) zero_offsets]
  obtain ⟨e0, e1, e2, e3, e4, e5⟩ := blockIndex3 t
  have ht : t.val < 20 := lt_of_lt_of_eq t.isLt N_3
  funext j
  obtain ⟨p, q, rfl⟩ : ∃ (p : Fin 5000) (q : Fin 3), j = ix2 p q := ⟨j 0, j 1, eq_ix2 j⟩
  have hrow : ((cfg3.win 2).blk t).view.emb (ix2 p q) = ix2 (⟨t.val * 5000 + p.val, by omega⟩ : Fin 100000) q := by
    funext a; apply Fin.ext
    match a with
    | ⟨0, _⟩ => show win3_2.index t (0 : Fin 2) * 5000 + 1 * p.val = t.val * 5000 + p.val; rw [e4]; omega
    | ⟨1, _⟩ => show win3_2.index t (1 : Fin 2) * 3 + 1 * q.val = q.val; rw [e5]; omega
  show k3_pay1 (iblk3 V c 0 t) (iblk3 V c 1 t) (ix2 p q)
    = Cert.Gcn.bias3 (V c main_v58) b (((cfg3.win 2).blk t).view.emb (ix2 p q))
  have h0 : iblk3 V c 0 t (ix2 p q) = V c main_v58 (ix2 (⟨t.val * 5000 + p.val, by omega⟩ : Fin 100000) q) := by
    show V c main_v58 (((cfg3.win 0).blk t).view.emb (ix2 p q)) = V c main_v58 _
    refine congrArg (V c main_v58) (funext fun a => Fin.ext ?_)
    match a with
    | ⟨0, _⟩ => show win3_0.index t (0 : Fin 2) * 5000 + 1 * p.val = t.val * 5000 + p.val; rw [e0]; omega
    | ⟨1, _⟩ => show win3_0.index t (1 : Fin 2) * 3 + 1 * q.val = q.val; rw [e1]; omega
  have h1 : iblk3 V c 1 t (ix2 (0 : Fin 1) q) = b (ix1 q) := by
    show (V c main_v59 : S1x3.Idx → EReal) (((cfg3.win 1).blk t).view.emb (ix2 (0 : Fin 1) q)) = b (ix1 q)
    rw [hb]
    refine shapeCast_apply b Facts₀.shapeCasts_S3_S1x3 _ (ix1 q) ?_
    rw [Shape.rowMajor_val_two, Shape.rowMajor_val_one]
    show q.val = (win3_1.index t (0 : Fin 2) * 1 + 1 * 0) * 3 + (win3_1.index t (1 : Fin 2) * 3 + 1 * q.val)
    rw [e2, e3]; omega
  rw [hrow, blockBias, bias3_apply, h0, h1]

/-- A row is in point t's block exactly when it lies among the block's 5000 rows. -/
theorem mem_block3 (t : Fin cfg3.N) (i : S100000x3.Idx) :
    i ∈ ((cfg3.win 2).blk t).view.set ↔ ∀ a : Fin 2, win3_2.index t a * S5000x3.size a ≤ (i a).val ∧ (i a).val < win3_2.index t a * S5000x3.size a + S5000x3.size a := by
  show i ∈ ((View.whole main_v60).slice (win3_2.rect t)).set ↔ _
  rw [View.set_slice_whole, Rect.mem_set_unit]
  exact Iff.rfl

/-- After the last point the result array is the whole layer: row r lies in the block of point r / 5000. -/
theorem final3 (c : Dev nD) (b : FVec Ideal S3 .f32)
    (hb : (V c main_v59 : S1x3.Idx → EReal) = shapeCast S1x3 b Facts₀.shapeCasts_S3_S1x3) :
    (dat3 V c).arrAt 2 cfg3.N = Cert.Gcn.bias3 (V c main_v58) b :=
  (dat3 V c).arrAt_eq_of_cover 2 _ (fun t _ => flushed3 V c b hb t) fun i => by
    have hi0 : (i 0).val < 100000 := (i 0).isLt
    have hi1 : (i 1).val < 3 := (i 1).isLt
    have hN : cfg3.N = 20 := N_3
    refine ⟨⟨(i 0).val / 5000, by rw [hN]; omega⟩, flush3_2 _, ?_⟩
    rw [mem_block3]
    obtain ⟨e0, e1, e2, e3, e4, e5⟩ := blockIndex3 ⟨(i 0).val / 5000, by rw [hN]; omega⟩
    intro a
    match a with
    | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
    | ⟨1, _⟩ => show win3_2.index _ (1 : Fin 2) * 3 ≤ (i 1).val ∧ (i 1).val < win3_2.index _ (1 : Fin 2) * 3 + 3; rw [e5]; omega

end Cert.KernelIdeal.Bias2

end
-- ==== Proof.HostStretches.lean ====
/-
  The host operations between the layers, read at the buffers the layers consume, from ANY contents of the buffers
  they read. The first stretch builds the extended edge list (each of the two rows of the edge index followed by
  0 ... 99999, one self-loop per node) and the edge weights; the second gathers the first product's rows along the
  sources, scales them and adds them into the destinations, and re-lays the first bias as one row; the third does
  the same with the second product and the second bias. The reference spells each of these with the same
  operations, so each reading is closed by unfolding the reference's stages.
-/
import proofs.«162686_j6459630813849_1_alg».proof.Proof.Gen.KernelIdeal.Frame
import proofs.«162686_j6459630813849_1_alg».proof.Proof.GcnModel

set_option maxRecDepth 16384

noncomputable section

open Idealize.ShloMosaic Idealize.ShloMosaic.TcCoe Idealize.SL.Sem Idealize.ShloMosaic.StableHlo

namespace Cert.KernelIdeal.Stretches

open Cert.KernelIdeal Cert.KernelIdeal.Gen

variable (W : Valuation τ sig (Elt Ideal))

/-! ## Before the first layer -/

/-- The sources of the extended edge list. -/
theorem sources : after hostOps0 W (Proc.devRef .tc main_v3)
    = Cert.ReferenceIdeal.Read.val_main_v3 (F := Ideal) (W (Proc.devRef .tc main_arg1)) := by
  dsimp only [hostOps0]
  after_results_simp
  rfl

/-- The destinations of the extended edge list. -/
theorem dests : after hostOps0 W (Proc.devRef .tc main_v6)
    = Cert.ReferenceIdeal.Read.val_main_v6 (F := Ideal) (W (Proc.devRef .tc main_arg1)) := by
  dsimp only [hostOps0]
  after_results_simp
  rfl

/-- The edge weights: the product of the inverse square roots of the clipped degrees of an edge's two ends. -/
theorem weights : after hostOps0 W (Proc.devRef .tc main_v28)
    = Cert.ReferenceIdeal.Read.val_main_v28 (F := Ideal) (W (Proc.devRef .tc main_arg1)) := by
  dsimp only [hostOps0]
  after_results_simp
  rfl

/-- The first stretch writes none of the arguments. -/
theorem keep0_arg0 : after hostOps0 W (Proc.devRef .tc main_arg0) = W (Proc.devRef .tc main_arg0) := by
  dsimp only [hostOps0]
  after_results_simp
theorem keep0_arg2 : after hostOps0 W (Proc.devRef .tc main_arg2) = W (Proc.devRef .tc main_arg2) := by
  dsimp only [hostOps0]
  after_results_simp
theorem keep0_arg3 : after hostOps0 W (Proc.devRef .tc main_arg3) = W (Proc.devRef .tc main_arg3) := by
  dsimp only [hostOps0]
  after_results_simp
theorem keep0_arg4 : after hostOps0 W (Proc.devRef .tc main_arg4) = W (Proc.devRef .tc main_arg4) := by
  dsimp only [hostOps0]
  after_results_simp
theorem keep0_arg5 : after hostOps0 W (Proc.devRef .tc main_arg5) = W (Proc.devRef .tc main_arg5) := by
  dsimp only [hostOps0]
  after_results_simp

/-! ## Between the first dense layer and its bias -/

/-- The first product aggregated along the edges, when the edge list and the weights are those of the edge index `e`. -/
theorem aggregated64 (e : IVec S2x3200000 32)
    (h3 : W (Proc.devRef .tc main_v3) = Cert.ReferenceIdeal.Read.val_main_v3 (F := Ideal) e)
    (h6 : W (Proc.devRef .tc main_v6) = Cert.ReferenceIdeal.Read.val_main_v6 (F := Ideal) e)
    (h28 : W (Proc.devRef .tc main_v28) = Cert.ReferenceIdeal.Read.val_main_v28 (F := Ideal) e) :
    after hostOps1 W (Proc.devRef .tc main_v42) = Cert.Gcn.aggregate64 e (W (Proc.devRef .tc main_v29)) := by
  dsimp only [hostOps1]
  after_results_simp
  rw [h3, h6, h28]
  rfl

/-- The first bias as one row. -/
theorem biasRow1 : after hostOps1 W (Proc.devRef .tc main_v43)
    = shapeCast S1x64 (W (Proc.devRef .tc main_arg3)) Facts₀.shapeCasts_S64_S1x64 := by
  dsimp only [hostOps1]
  after_results_simp
  rfl

/-- The second stretch leaves the edge list, the weights and the later arguments alone. -/
theorem keep1_v3 : after hostOps1 W (Proc.devRef .tc main_v3) = W (Proc.devRef .tc main_v3) := by
  dsimp only [hostOps1]
  after_results_simp
theorem keep1_v6 : after hostOps1 W (Proc.devRef .tc main_v6) = W (Proc.devRef .tc main_v6) := by
  dsimp only [hostOps1]
  after_results_simp
theorem keep1_v28 : after hostOps1 W (Proc.devRef .tc main_v28) = W (Proc.devRef .tc main_v28) := by
  dsimp only [hostOps1]
  after_results_simp
theorem keep1_arg4 : after hostOps1 W (Proc.devRef .tc main_arg4) = W (Proc.devRef .tc main_arg4) := by
  dsimp only [hostOps1]
  after_results_simp
theorem keep1_arg5 : after hostOps1 W (Proc.devRef .tc main_arg5) = W (Proc.devRef .tc main_arg5) := by
  dsimp only [hostOps1]
  after_results_simp

/-! ## Between the second dense layer and its bias -/

/-- The second product aggregated along the same edges. -/
theorem aggregated3 (e : IVec S2x3200000 32)
    (h3 : W (Proc.devRef .tc main_v3) = Cert.ReferenceIdeal.Read.val_main_v3 (F := Ideal) e)
    (h6 : W (Proc.devRef .tc main_v6) = Cert.ReferenceIdeal.Read.val_main_v6 (F := Ideal) e)
    (h28 : W (Proc.devRef .tc main_v28) = Cert.ReferenceIdeal.Read.val_main_v28 (F := Ideal) e) :
    after hostOps3 W (Proc.devRef .tc main_v58) = Cert.Gcn.aggregate3 e (W (Proc.devRef .tc main_v45)) := by
  dsimp only [hostOps3]
  after_results_simp
  rw [h3, h6, h28]
  rfl

/-- The second bias as one row. -/
theorem biasRow2 : after hostOps3 W (Proc.devRef .tc main_v59)
    = shapeCast S1x3 (W (Proc.devRef .tc main_arg5)) Facts₀.shapeCasts_S3_S1x3 := by
  dsimp only [hostOps3]
  after_results_simp
  rfl

end Cert.KernelIdeal.Stretches

end
-- ==== Proof.KernelValue.lean ====
/-
  The kernel's result. The seven segments are followed from the launch: at each boundary the buffers the later
  segments read are named — the arguments, the extended edge list and its weights (functions of the edge index
  alone, carried unchanged past every layer), and the running features — and the result buffer ends at the
  two-layer network of the arguments.
-/
import proofs.«162686_j6459630813849_1_alg».proof.Proof.KernelRun
import proofs.«162686_j6459630813849_1_alg».proof.Proof.DenseLayer1
import proofs.«162686_j6459630813849_1_alg».proof.Proof.BiasClipLayer
import proofs.«162686_j6459630813849_1_alg».proof.Proof.DenseLayer2
import proofs.«162686_j6459630813849_1_alg».proof.Proof.BiasLayer2
import proofs.«162686_j6459630813849_1_alg».proof.Proof.HostStretches

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen Cert.KernelIdeal.Stretches

variable (m : (ℓ : Loc nD τ sig) → Buf (Elt Ideal) ℓ) (ρ : Dev nD → PrngReg) (c : Dev nD)

/-! ## Before the first dense layer -/

theorem W1_arg0 : W1 m ρ c (Proc.devRef .tc main_arg0) = (m ((c.tc : Thread nD τ).loc main_arg0)) := keep0_arg0 (W0 m ρ c)
theorem W1_arg2 : W1 m ρ c (Proc.devRef .tc main_arg2) = (m ((c.tc : Thread nD τ).loc main_arg2)) := keep0_arg2 (W0 m ρ c)
theorem W1_arg3 : W1 m ρ c (Proc.devRef .tc main_arg3) = (m ((c.tc : Thread nD τ).loc main_arg3)) := keep0_arg3 (W0 m ρ c)
theorem W1_arg4 : W1 m ρ c (Proc.devRef .tc main_arg4) = (m ((c.tc : Thread nD τ).loc main_arg4)) := keep0_arg4 (W0 m ρ c)
theorem W1_arg5 : W1 m ρ c (Proc.devRef .tc main_arg5) = (m ((c.tc : Thread nD τ).loc main_arg5)) := keep0_arg5 (W0 m ρ c)
theorem W1_v3 : W1 m ρ c (Proc.devRef .tc main_v3) = Cert.ReferenceIdeal.Read.val_main_v3 (F := Ideal) (m ((c.tc : Thread nD τ).loc main_arg1)) := sources (W0 m ρ c)
theorem W1_v6 : W1 m ρ c (Proc.devRef .tc main_v6) = Cert.ReferenceIdeal.Read.val_main_v6 (F := Ideal) (m ((c.tc : Thread nD τ).loc main_arg1)) := dests (W0 m ρ c)
theorem W1_v28 : W1 m ρ c (Proc.devRef .tc main_v28) = Cert.ReferenceIdeal.Read.val_main_v28 (F := Ideal) (m ((c.tc : Thread nD τ).loc main_arg1)) := weights (W0 m ρ c)

/-! ## After the first dense layer -/

theorem W2_v29 : W2 m ρ c (Proc.devRef .tc main_v29) = Cert.Gcn.dense1 (m ((c.tc : Thread nD τ).loc main_arg0)) (m ((c.tc : Thread nD τ).loc main_arg2)) :=
  (W2_arr m ρ c 2).trans ((Cert.KernelIdeal.Dense1.final0 (V1 m ρ) c).trans (by
    show Cert.Gcn.dense1 (W1 m ρ c (Proc.devRef .tc main_arg0)) (W1 m ρ c (Proc.devRef .tc main_arg2)) = _
    rw [W1_arg0 m ρ c, W1_arg2 m ρ c]))
theorem W2_v3 : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_v6 : W2 m ρ c (Proc.devRef .tc main_v6) = Cert.ReferenceIdeal.Read.val_main_v6 (F := Ideal) (m ((c.tc : Thread nD τ).loc main_arg1)) :=
  (W2_of_ne m ρ c main_v6 (by decide)).trans (W1_v6 m ρ c)
theorem W2_v28 : W2 m ρ c (Proc.devRef .tc main_v28) = Cert.ReferenceIdeal.Read.val_main_v28 (F := Ideal) (m ((c.tc : Thread nD τ).loc main_arg1)) :=
  (W2_of_ne m ρ c main_v28 (by decide)).trans (W1_v28 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)

/-! ## After the first aggregation -/

theorem W3_v42 : W3 m ρ c (Proc.devRef .tc main_v42) = Cert.Gcn.aggregate64 (m ((c.tc : Thread nD τ).loc main_arg1)) (Cert.Gcn.dense1 (m ((c.tc : Thread nD τ).loc main_arg0)) (m ((c.tc : Thread nD τ).loc main_arg2))) :=
  (aggregated64 (W2 m ρ c) (m ((c.tc : Thread nD τ).loc main_arg1)) (W2_v3 m ρ c) (W2_v6 m ρ c) (W2_v28 m ρ c)).trans (by rw [W2_v29 m ρ c])
theorem W3_v43 : W3 m ρ c (Proc.devRef .tc main_v43) = shapeCast S1x64 (m ((c.tc : Thread nD τ).loc main_arg3)) Facts₀.shapeCasts_S64_S1x64 :=
  (biasRow1 (W2 m ρ c)).trans (by rw [W2_arg3 m ρ c])
theorem W3_v3 : W3 m ρ c (Proc.devRef .tc main_v3) = Cert.ReferenceIdeal.Read.val_main_v3 (F := Ideal) (m ((c.tc : Thread nD τ).loc main_arg1)) :=
  (keep1_v3 (W2 m ρ c)).trans (W2_v3 m ρ c)
theorem W3_v6 : W3 m ρ c (Proc.devRef .tc main_v6) = Cert.ReferenceIdeal.Read.val_main_v6 (F := Ideal) (m ((c.tc : Thread nD τ).loc main_arg1)) :=
  (keep1_v6 (W2 m ρ c)).trans (W2_v6 m ρ c)
theorem W3_v28 : W3 m ρ c (Proc.devRef .tc main_v28) = Cert.ReferenceIdeal.Read.val_main_v28 (F := Ideal) (m ((c.tc : Thread nD τ).loc main_arg1)) :=
  (keep1_v28 (W2 m ρ c)).trans (W2_v28 m ρ c)
theorem W3_arg4 : W3 m ρ c (Proc.devRef .tc main_arg4) = (m ((c.tc : Thread nD τ).loc main_arg4)) :=
  (keep1_arg4 (W2 m ρ c)).trans (W2_arg4 m ρ c)
theorem W3_arg5 : W3 m ρ c (Proc.devRef .tc main_arg5) = (m ((c.tc : Thread nD τ).loc main_arg5)) :=
  (keep1_arg5 (W2 m ρ c)).trans (W2_arg5 m ρ c)

/-! ## After the first bias and clipping -/

theorem W4_v44 : W4 m ρ c (Proc.devRef .tc main_v44) = Cert.Gcn.biasRelu (Cert.Gcn.aggregate64 (m ((c.tc : Thread nD τ).loc main_arg1)) (Cert.Gcn.dense1 (m ((c.tc : Thread nD τ).loc main_arg0)) (m ((c.tc : Thread nD τ).loc main_arg2)))) (m ((c.tc : Thread nD τ).loc main_arg3)) :=
  (W4_arr m ρ c 2).trans ((Cert.KernelIdeal.BiasClip.final1 (V3 m ρ) c (m ((c.tc : Thread nD τ).loc main_arg3)) (W3_v43 m ρ c)).trans (by
    show Cert.Gcn.biasRelu (W3 m ρ c (Proc.devRef .tc main_v42)) _ = _
    rw [W3_v42 m ρ c]))
theorem W4_v3 : W4 m ρ c (Proc.devRef .tc main_v3) = Cert.ReferenceIdeal.Read.val_main_v3 (F := Ideal) (m ((c.tc : Thread nD τ).loc main_arg1)) :=
  (W4_of_ne m ρ c main_v3 (by decide)).trans (W3_v3 m ρ c)
theorem W4_v6 : W4 m ρ c (Proc.devRef .tc main_v6) = Cert.ReferenceIdeal.Read.val_main_v6 (F := Ideal) (m ((c.tc : Thread nD τ).loc main_arg1)) :=
  (W4_of_ne m ρ c main_v6 (by decide)).trans (W3_v6 m ρ c)
theorem W4_v28 : W4 m ρ c (Proc.devRef .tc main_v28) = Cert.ReferenceIdeal.Read.val_main_v28 (F := Ideal) (m ((c.tc : Thread nD τ).loc main_arg1)) :=
  (W4_of_ne m ρ c main_v28 (by decide)).trans (W3_v28 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)

/-! ## After the second dense layer -/

theorem W5_v45 : W5 m ρ c (Proc.devRef .tc main_v45) = Cert.Gcn.dense2 (Cert.Gcn.biasRelu (Cert.Gcn.aggregate64 (m ((c.tc : Thread nD τ).loc main_arg1)) (Cert.Gcn.dense1 (m ((c.tc : Thread nD τ).loc main_arg0)) (m ((c.tc : Thread nD τ).loc main_arg2)))) (m ((c.tc : Thread nD τ).loc main_arg3))) (m ((c.tc : Thread nD τ).loc main_arg4)) :=
  (W5_arr m ρ c 2).trans ((Cert.KernelIdeal.Dense2.final2 (V4 m ρ) c).trans (by
    show Cert.Gcn.dense2 (W4 m ρ c (Proc.devRef .tc main_v44)) (W4 m ρ c (Proc.devRef .tc main_arg4)) = _
    rw [W4_v44 m ρ c, W4_arg4 m ρ c]))
theorem W5_v3 : W5 m ρ c (Proc.devRef .tc main_v3) = Cert.ReferenceIdeal.Read.val_main_v3 (F := Ideal) (m ((c.tc : Thread nD τ).loc main_arg1)) :=
  (W5_of_ne m ρ c main_v3 (by decide)).trans (W4_v3 m ρ c)
theorem W5_v6 : W5 m ρ c (Proc.devRef .tc main_v6) = Cert.ReferenceIdeal.Read.val_main_v6 (F := Ideal) (m ((c.tc : Thread nD τ).loc main_arg1)) :=
  (W5_of_ne m ρ c main_v6 (by decide)).trans (W4_v6 m ρ c)
theorem W5_v28 : W5 m ρ c (Proc.devRef .tc main_v28) = Cert.ReferenceIdeal.Read.val_main_v28 (F := Ideal) (m ((c.tc : Thread nD τ).loc main_arg1)) :=
  (W5_of_ne m ρ c main_v28 (by decide)).trans (W4_v28 m ρ c)
theorem W5_arg5 : W5 m ρ c (Proc.devRef .tc main_arg5) = (m ((c.tc : Thread nD τ).loc main_arg5)) :=
  (W5_of_ne m ρ c main_arg5 (by decide)).trans (W4_arg5 m ρ c)

/-! ## After the second aggregation -/

theorem W6_v58 : W6 m ρ c (Proc.devRef .tc main_v58) = Cert.Gcn.aggregate3 (m ((c.tc : Thread nD τ).loc main_arg1)) (Cert.Gcn.dense2 (Cert.Gcn.biasRelu (Cert.Gcn.aggregate64 (m ((c.tc : Thread nD τ).loc main_arg1)) (Cert.Gcn.dense1 (m ((c.tc : Thread nD τ).loc main_arg0)) (m ((c.tc : Thread nD τ).loc main_arg2)))) (m ((c.tc : Thread nD τ).loc main_arg3))) (m ((c.tc : Thread nD τ).loc main_arg4))) :=
  (aggregated3 (W5 m ρ c) (m ((c.tc : Thread nD τ).loc main_arg1)) (W5_v3 m ρ c) (W5_v6 m ρ c) (W5_v28 m ρ c)).trans (by rw [W5_v45 m ρ c])
theorem W6_v59 : W6 m ρ c (Proc.devRef .tc main_v59) = shapeCast S1x3 (m ((c.tc : Thread nD τ).loc main_arg5)) Facts₀.shapeCasts_S3_S1x3 :=
  (biasRow2 (W5 m ρ c)).trans (by rw [W5_arg5 m ρ c])

/-! ## The result -/

/-- After the last layer the result buffer holds the network of the arguments. -/
theorem W7_v60 : W7 m ρ c (Proc.devRef .tc main_v60) = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W7_arr m ρ c 2).trans ((Cert.KernelIdeal.Bias2.final3 (V6 m ρ) c (m ((c.tc : Thread nD τ).loc main_arg5)) (W6_v59 m ρ c)).trans (by
    show Cert.Gcn.bias3 (W6 m ρ c (Proc.devRef .tc main_v58)) _ = _
    rw [W6_v58 m ρ c]
    rfl))

/-- Every weakly fair execution of the kernel terminates with the result buffer at the network of the arguments
    and the arguments unchanged. -/
theorem run_value : θ_run defs (onTc (τ := τ) (main (F := Ideal))) ⟨m, fun _ => 0, ρ⟩ (fun r => ∀ c : Dev nD,
      r.2.mem ((c.tc : Thread nD τ).loc main_v60) = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_v60 m ρ c), (h c).2⟩) (run_result m ρ)

end Cert.KernelIdeal.Whole

end
-- ==== Proof.lean ====
/-
  A two-layer graph convolution, the dense parts as four tiled kernels, against the plain reference.

  On the extended reals the four kernels are exact: a block of rows times the weight matrix, accumulated from zero,
  is the corresponding rows of the whole product (the rounding of the operands is the identity there); a block of
  rows plus the bias row, clipped at zero or not, is the corresponding rows of the whole array plus the bias. The
  twenty row blocks tile the 100000 rows, so each kernel leaves the whole layer in its result array. Everything
  between the kernels — the extended edge list, the degrees and edge weights, the gathers along the sources and the
  sums into the destinations — is the same sequence of host operations in both programs, applied to the same edge
  index, so it is never opened: both programs end at the one function `Cert.Gcn.gcn` of the six arguments. No step
  uses more than 0 + x = x, so the precondition (finite inputs) is not needed for the equality.
-/
import proofs.«162686_j6459630813849_1_alg».proof.Defs
import proofs.«162686_j6459630813849_1_alg».proof.Proof.Gen.Kernel
import proofs.«162686_j6459630813849_1_alg».proof.Proof.Gen.Kernel.Skeleton
import proofs.«162686_j6459630813849_1_alg».proof.Proof.Gen.Kernel.Launch
import proofs.«162686_j6459630813849_1_alg».proof.Proof.Gen.Kernel.Points
import proofs.«162686_j6459630813849_1_alg».proof.Proof.Gen.Kernel.Frame
import proofs.«162686_j6459630813849_1_alg».proof.Proof.Gen.KernelIdeal
import proofs.«162686_j6459630813849_1_alg».proof.Proof.Gen.KernelIdeal.Skeleton
import proofs.«162686_j6459630813849_1_alg».proof.Proof.Gen.KernelIdeal.Launch
import proofs.«162686_j6459630813849_1_alg».proof.Proof.Gen.KernelIdeal.Points
import proofs.«162686_j6459630813849_1_alg».proof.Proof.Gen.KernelIdeal.Frame
import proofs.«162686_j6459630813849_1_alg».proof.Proof.Gen.ReferenceIdeal
import proofs.«162686_j6459630813849_1_alg».proof.Proof.Gen.ReferenceIdeal.Run
import proofs.«162686_j6459630813849_1_alg».proof.Proof.Gen.ReferenceIdeal.Read
import proofs.«162686_j6459630813849_1_alg».proof.Proof.Gen.Pre_finite_inputs
import proofs.«162686_j6459630813849_1_alg».proof.Proof.GcnModel
import proofs.«162686_j6459630813849_1_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- Both programs end at the network of the arguments: the kernel by following its seven segments, the reference by
    unfolding its stages layer by layer. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, Cert.Gcn.reference_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
